-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x64 : Shape := ⟨2, ![2048, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S8192x2048 .f32) (main_arg1 : FVec F S2048x64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S8192x2048 : Shape := ⟨2, ![8192, 2048]⟩
abbrev S2048x64 : Shape := ⟨2, ![2048, 64]⟩
abbrev S_ : Shape := ⟨0, ![]⟩
abbrev S2048 : Shape := ⟨1, ![2048]⟩
abbrev S1x2048 : Shape := ⟨2, ![1, 2048]⟩
abbrev S8192x1 : Shape := ⟨2, ![8192, 1]⟩
abbrev S1024x2048 : Shape := ⟨2, ![1024, 2048]⟩
abbrev S1024x1 : Shape := ⟨2, ![1024, 1]⟩
abbrev S1024x64 : Shape := ⟨2, ![1024, 64]⟩
abbrev S1024 : Shape := ⟨1, ![1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S2048x64, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S8192x1, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S1x2048, .f32⟩
  | .local _ .vmem, ⟨4, _⟩ => ⟨S1024x1, .f32⟩
  | .local _ .vmem, ⟨5, _⟩ => ⟨S1024x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x64_S2048_d1 : S2048x64.ReducesTo [1] S2048
  h_S_ : 0 < S_.numel
  bcast_S2048_S1x2048_1 : S2048.BroadcastsInDim S1x2048 (![1] : Fin 1 → Fin S1x2048.rank)
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  reduces_S1024x64_S1024 : S1024x64.Reduces [1] S1024
  inb_S1024x1_S1024x1_0_0 : ∀ a, (![0, 0] : Fin 2 → Nat) a + S1024x1.size a ≤ S1024x1.size a
  h_S1024x1 : 0 < S1024x1.numel
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x64 : Shape := ⟨2, ![2048, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S8192x64, .f32⟩
  | .hbm, ⟨3, _⟩ => ⟨S8192x2048, .f32⟩
  | .hbm, ⟨4, _⟩ => ⟨S2048x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.Interaction.lean ====
/-
  The second-order interaction of a factorization machine, in two arrangements.

  For a batch row `b` of `x` (8192 rows of 2048 features) and a factor matrix `v` (2048 features by 64 factors) write
  `P b k = ∑ i, x b i · v i k` for the row's projection on factor `k`. The pairwise interaction of the row is half of
  `∑ k, (P b k)² - ∑ k, ∑ i, (x b i)² · (v i k)²`.

  * FACTORED: the double sum is taken feature by feature, `∑ i, (x b i)² · W i` with `W i = ∑ k, (v i k)²` the squared
    norm of feature `i`'s factor row, and subtracted once from `∑ k, (P b k)²`.
  * PAIRED: the subtraction is done factor by factor, `∑ k, ((P b k)² - ∑ i, (x b i)² · (v i k)²)`.

  On the extended reals the two differ at infinite entries (a difference of sums is not the sum of differences there); on
  real entries they agree: a finite sum of differences is the difference of the sums, the double sum may be taken in either
  order, and a factor moves into a finite sum.
-/
import Idealize.ShloMosaic.PureOps.Ideal
import Idealize.ShloMosaic.Lib.ValueIdx
import proofs.«136021_j19035295056197_2_alg».proof.Proof.LibERealFinite

noncomputable section

open scoped BigOperators

namespace Cert.Interaction

open Idealize.ShloMosaic Idealize.ShloMosaic.ValueIdx Cert.LibERealFinite

/-- One half, as the f32 word both programs carry. -/
abbrev half : EReal := Ideal.ofBits .f32 0x3F000000#32

/-- Over the reals: the difference of the summed squares and the feature-wise double sum is the sum of the factor-wise
    differences. -/
theorem real_split {ι κ : Type*} [Fintype ι] [Fintype κ] (P : κ → ℝ) (a : ι → ℝ) (w : ι → κ → ℝ) :
    (∑ k, P k * P k) - ∑ i, a i * a i * ∑ k, w i k * w i k
      = ∑ k, (P k * P k - ∑ i, a i * a i * (w i k * w i k)) := by
  rw [Finset.sum_sub_distrib, Finset.sum_comm]
  congr 1
  exact Finset.sum_congr rfl fun i _ => Finset.mul_sum _ _ _

/-- The same on the extended reals, at real entries. -/
theorem ereal_split {ι κ : Type*} [Fintype ι] [Fintype κ] (a : ι → ℝ) (w : ι → κ → ℝ) :
    (∑ k, (∑ i, (a i : EReal) * (w i k : EReal)) * (∑ i, (a i : EReal) * (w i k : EReal)))
        - ∑ i, (a i : EReal) * (a i : EReal) * ∑ k, (w i k : EReal) * (w i k : EReal)
      = ∑ k, ((∑ i, (a i : EReal) * (w i k : EReal)) * (∑ i, (a i : EReal) * (w i k : EReal))
          - ∑ i, (a i : EReal) * (a i : EReal) * ((w i k : EReal) * (w i k : EReal))) := by
  simp only [← EReal.coe_mul, ← coe_sum, ← EReal.coe_sub]
  exact congrArg _ (real_split (fun k => ∑ i, a i * w i k) a w)

variable (x : (⟨2, ![8192, 2048]⟩ : Shape).Idx → EReal) (v : (⟨2, ![2048, 64]⟩ : Shape).Idx → EReal)

/-- Row `b`'s projection on factor `k`. -/
def proj (b : Fin 8192) (k : Fin 64) : EReal := ∑ i : Fin 2048, x (ix2 b i) * v (ix2 i k)

/-- The squared norm of feature `i`'s factor row. -/
def rowNorm (i : Fin 2048) : EReal := ∑ k : Fin 64, v (ix2 i k) * v (ix2 i k)

/-- The interaction of row `b`, factored. -/
def factored (b : Fin 8192) : EReal :=
  half * ((∑ k : Fin 64, proj x v b k * proj x v b k) - ∑ i : Fin 2048, x (ix2 b i) * x (ix2 b i) * rowNorm v i)

/-- The interaction of row `b`, paired. -/
def paired (b : Fin 8192) : EReal :=
  half * ∑ k : Fin 64, (proj x v b k * proj x v b k - ∑ i : Fin 2048, x (ix2 b i) * x (ix2 b i) * (v (ix2 i k) * v (ix2 i k)))

/-- At real entries the two arrangements are one number. -/
theorem factored_eq_paired (hx : ∀ j, ∃ r : ℝ, x j = (r : EReal)) (hv : ∀ j, ∃ r : ℝ, v j = (r : EReal)) (b : Fin 8192) :
    factored x v b = paired x v b := by
  choose xr hxr using hx
  choose vr hvr using hv
  unfold factored paired proj rowNorm
  simp only [hxr, hvr]
  exact congrArg (half * ·) (ereal_split (fun i : Fin 2048 => xr (ix2 b i)) (fun (i : Fin 2048) (k : Fin 64) => vr (ix2 i k)))

end Cert.Interaction

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.BlockValue.lean ====
/-
  What one grid step computes from its three blocks.

  A step holds 1024 rows of `x` (a [1024, 2048] block `X`), the whole factor matrix `V` ([2048, 64]) and the one row `w`
  ([1, 2048]) of squared factor-row norms. For its row `p` it stores, in the one column of its [1024, 1] output block,
  half of `∑ k, (∑ i, X p i · V i k)² - ∑ i, (X p i)² · w 0 i`: a plain matrix product into the zero accumulator read at an
  entry is the sum over the contracted coordinate, a sum over the lane axis kept as a column is the sum over the row, and the
  one row `w` is read at every row of the block.
-/
import proofs.«136021_j19035295056197_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«136021_j19035295056197_2_alg».proof.Proof.LibPlainMatmul
import proofs.«136021_j19035295056197_2_alg».proof.Proof.LibColumnCast
import proofs.«136021_j19035295056197_2_alg».proof.Proof.Interaction

noncomputable section

open scoped BigOperators

namespace Cert.KernelIdeal.Block

open Cert.KernelIdeal Cert.KernelIdeal.Gen Idealize.ShloMosaic Idealize.ShloMosaic.ValueIdx Cert.Interaction

/-- A sum over the second axis of an [a, n] array, kept as an [a, 1] column, reads at (p, u) the sum over row p. -/
theorem rowSum_column_apply {a n : ℕ} (y : FVec Ideal ⟨2, ![a, n]⟩ .f32)
    (h : (⟨2, ![a, n]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ y 0x00000000#32 h hφ hacc) hc (ix2 p u)
      = ∑ j : Fin n, y (ix2 p j) := by
  refine (Cert.LibColumnCast.shapeCast_a_a1_apply _ hc p u).trans ?_
  refine (Ideal.multiReduction_add_single y 0x00000000#32 h hφ hacc (ix1 p)).trans ?_
  refine Finset.sum_congr rfl fun j _ => congrArg y (funext fun ax => Fin.ext ?_)
  match ax with
  | ⟨0, _⟩ => rfl
  | ⟨1, _⟩ => rfl

/-- The step's stored value at row `p` of its block. -/
theorem pay_apply (X : Vec Ideal S1024x2048 .f32) (V : Vec Ideal S2048x64 .f32) (w : Vec Ideal S1x2048 .f32)
    (p : Fin 1024) (u : Fin 1) :
    k0_pay1 (F := Ideal) X V w (ix2 p u)
      = half * ((∑ k : Fin 64, (∑ i : Fin 2048, X (ix2 p i) * V (ix2 i k)) * (∑ i : Fin 2048, X (ix2 p i) * V (ix2 i k)))
          - ∑ i : Fin 2048, X (ix2 p i) * X (ix2 p i) * w (ix2 (0 : Fin 1) i)) := by
  unfold k0_pay1
  refine (mulf_apply _ _ _).trans ?_
  refine congrArg₂ (· * ·) rfl ?_
  refine (subf_apply _ _ _).trans ?_
  refine congrArg₂ (· - ·) ?_ ?_
  · refine (rowSum_column_apply _ _ _ _ _ p u).trans ?_
    refine Finset.sum_congr rfl fun k _ => ?_
    refine (mulf_apply _ _ _).trans ?_
    refine congrArg₂ (· * ·) ?_ ?_ <;>
      exact matmul_plain_zero_apply (m := 1024) (k := 2048) (n := 64) none X V p k
  · refine (rowSum_column_apply _ _ _ _ _ p u).trans ?_
    refine Finset.sum_congr rfl fun i _ => ?_
    refine (mulf_apply _ _ _).trans ?_
    refine congrArg₂ (· * ·) (mulf_apply _ _ _) ?_
    refine (broadcastTo_1b_ab_apply _ _ p i).trans ?_
    rw [shapeCast_self]

end Cert.KernelIdeal.Block

end
-- ==== Proof.RowNorms.lean ====
/-
  The one row of squared factor-row norms the host prepares before the grid runs.

  Before the grid runs the host squares `v` entry by entry, sums each row's 64 squares from zero, and lays the 2048 sums out
  as a [1, 2048] row. So the array the third window stages reads, at (0, i), `∑ k, (v i k)²`: the squared norm of feature
  `i`'s factor row.
-/
import proofs.«136021_j19035295056197_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws
import proofs.«136021_j19035295056197_2_alg».proof.Proof.Interaction

noncomputable section

open scoped BigOperators

namespace Cert.KernelIdeal.Norms

open Cert.KernelIdeal Cert.KernelIdeal.Gen Idealize.ShloMosaic Idealize.ShloMosaic.TcCoe Idealize.SL.Sem
open Idealize.ShloMosaic.StableHlo Idealize.ShloMosaic.ValueIdx Cert.Interaction

/-- The host's three operations on `v`: square, sum each row from zero, lay out as one row. -/
def normRow (v : FVec Ideal S2048x64 .f32) : FVec Ideal S1x2048 .f32 :=
  broadcastInDim S1x2048 ![1] bcast_S2048_S1x2048_1
    (Host.reduceAdd (F := Ideal) (mulf v v) (constant (F := Ideal) S_ .f32 0x00000000#32) reducesTo_S2048x64_S2048_d1 h_S_)

/-- At (0, i) that row holds the squared norm of feature `i`'s factor row. -/
theorem normRow_apply (v : FVec Ideal S2048x64 .f32) (i : Fin 2048) :
    normRow v (ix2 (0 : Fin 1) i) = rowNorm v i := by
  unfold normRow rowNorm
  refine (broadcastInDim_apply _ bcast_S2048_S1x2048_1 _ (ix2 (0 : Fin 1) i) (ix1 i) (fun a => match a with
    | ⟨0, _⟩ => by show i.val = if (2048 : Nat) = 1 then 0 else i.val; rw [if_neg (by decide)])).trans ?_
  simp only [Host.reduceAdd, Ideal.hostReduceAdd_def]
  rw [Ideal.hostReduceAdd_single reducesTo_S2048x64_S2048_d1 (by decide)]
  show Ideal.ofBits .f32 0x00000000#32 + _ = _
  rw [Ideal.ofBits_zero_f32, zero_add]
  refine Finset.sum_congr rfl fun k _ => ?_
  refine (mulf_apply _ _ _).trans ?_
  refine congrArg₂ (· * ·) ?_ ?_ <;>
    exact congrArg v (funext fun a => Fin.ext (by match a with | ⟨0, _⟩ => rfl | ⟨1, _⟩ => rfl))

variable (m : (ℓ : Loc nD τ sig) → Buf (Elt Ideal) ℓ)

/-- What the third window's array holds when the grid starts: that row, of the launch contents of `v`. -/
theorem V_main_v2 (c : Dev nD) :
    (V m c main_v2 : S1x2048.Idx → EReal) = normRow (m ((c : Thread nD τ).loc main_arg1)) := by
  dsimp only [V, hostOps0]
  after_results
  rfl

end Cert.KernelIdeal.Norms

end
-- ==== Proof.KernelValue.lean ====
/-
  From the grid's blocks to the whole result array.

  The grid has 8 steps. Step `t` reads rows `1024·t … 1024·t + 1023` of `x`, the whole of `v` and the whole row of squared
  factor-row norms, and writes rows `1024·t … 1024·t + 1023` of the [8192, 1] result. So what step `t` writes back is block
  `t` of ONE function of the argument arrays — row `b` holds the factored interaction of row `b` of `x` —, the 8 blocks
  cover the result (row `b` lies in block `b / 1024`), and the result array ends holding that function.
-/
import proofs.«136021_j19035295056197_2_alg».proof.Proof.Gen.KernelIdeal.Value
import proofs.«136021_j19035295056197_2_alg».proof.Proof.BlockValue
import proofs.«136021_j19035295056197_2_alg».proof.Proof.RowNorms

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Interaction Cert.KernelIdeal.Block Cert.KernelIdeal.Norms

variable (m : (ℓ : Loc nD τ sig) → Buf (Elt Ideal) ℓ) (ρ : Dev nD → PrngReg)

/-- The result array as one function of `x` and `v`: row `b` holds the factored interaction of row `b`. -/
def result (x : S8192x2048.Idx → EReal) (v : S2048x64.Idx → EReal) : S8192x1.Idx → EReal :=
  fun j => factored x v (j 0)

theorem hz : (![0, 0] : Fin 2 → Nat) = fun _ => 0 := funext fun a => by fin_cases a <;> rfl

/-- The printed index maps over the 8 steps: the block of `x` moves with the output's block along the rows, every other
    block index is zero, and the output's row-block index is at most 7. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every row block of the result is some step's. -/
theorem idx_onto : ∀ q : Fin 8, ∃ t : Fin cfg0.N, win0_3.index t = ![q.val, 0] :=
  (by decide +kernel : ∀ q : Fin 8, ∃ t : Fin grid0.N, win0_3.index t = ![q.val, 0])

/-- The block of `x` at step `t`: row `p` of the block is row `(block index)·1024 + p` of `x`. -/
theorem xblk_apply (c : Dev nD) (t : Fin cfg0.N) (p : Fin 1024) (i : Fin 2048) (b : Fin 8192)
    (hb : b.val = win0_0.index t (0 : Fin 2) * 1024 + p.val) (h1 : win0_0.index t (1 : Fin 2) = 0) :
    (iblk m c 0 t : Vec Ideal S1024x2048 .f32) (ix2 p i)
      = (m ((c : Thread nD τ).loc main_arg0) : S8192x2048.Idx → EReal) (ix2 b i) := by
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = b.val; omega
  | ⟨1, _⟩ => show win0_0.index t (1 : Fin 2) * 2048 + 1 * i.val = i.val; omega

/-- The block of `v` at every step is `v`. -/
theorem vblk_apply (c : Dev nD) (t : Fin cfg0.N) (i : Fin 2048) (k : Fin 64)
    (h0 : win0_1.index t (0 : Fin 2) = 0) (h1 : win0_1.index t (1 : Fin 2) = 0) :
    (iblk m c 1 t : Vec Ideal S2048x64 .f32) (ix2 i k)
      = (m ((c : Thread nD τ).loc main_arg1) : S2048x64.Idx → EReal) (ix2 i k) := by
  unfold iblk
  rw [View.read_apply]
  show V m c main_arg1 _ = _
  rw [V_main_arg1]
  refine congrArg _ (funext fun a => Fin.ext ?_)
  match a with
  | ⟨0, _⟩ => show win0_1.index t (0 : Fin 2) * 2048 + 1 * i.val = i.val; omega
  | ⟨1, _⟩ => show win0_1.index t (1 : Fin 2) * 64 + 1 * k.val = k.val; omega

/-- The third block at every step is the row of squared factor-row norms. -/
theorem wblk_apply (c : Dev nD) (t : Fin cfg0.N) (i : Fin 2048)
    (h0 : win0_2.index t (0 : Fin 2) = 0) (h1 : win0_2.index t (1 : Fin 2) = 0) :
    (iblk m c 2 t : Vec Ideal S1x2048 .f32) (ix2 (0 : Fin 1) i)
      = rowNorm (m ((c : Thread nD τ).loc main_arg1)) i := by
  unfold iblk
  rw [View.read_apply]
  show (V m c main_v2 : S1x2048.Idx → EReal) _ = _
  rw [V_main_v2, ← normRow_apply]
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * i.val = i.val; omega

/-- What step `t` writes back is block `t` of `result` of the argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1))) := by
  rw [Cert.KernelIdeal.Value.flushed3]
  unfold out0_3
  rw [View.canon_unit_zero hz]
  simp only [View.ld_unit_zero (S := S1024x2048) hz, View.ld_unit_zero (S := S2048x64) hz, View.ld_unit_zero (S := S1x2048) hz]
  obtain ⟨e00, e01, e10, e11, e20, e21, e31, e3⟩ := idx_facts t
  funext y
  obtain ⟨p, u, rfl⟩ : ∃ (p : Fin 1024) (u : Fin 1), y = ix2 p u := ⟨y 0, y 1, eq_ix2 y⟩
  have hp := p.isLt
  have hu := u.isLt
  have hb : win0_3.index t (0 : Fin 2) * 1024 + p.val < 8192 := by omega
  have hj : ((cfg0.win 3).blk t).view.emb (ix2 p u)
      = ix2 (⟨win0_3.index t (0 : Fin 2) * 1024 + p.val, hb⟩ : Fin 8192) (0 : Fin 1) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 1 + 1 * u.val = 0; omega
  show k0_pay1 (F := Ideal) (iblk m c 0 t) (iblk m c 1 t) (iblk m c 2 t) (ix2 p u)
    = result (m ((c : Thread nD τ).loc main_arg0)) (m ((c : Thread nD τ).loc main_arg1)) (((cfg0.win 3).blk t).view.emb (ix2 p u))
  refine (pay_apply (iblk m c 0 t) (iblk m c 1 t) (iblk m c 2 t) p u).trans ?_
  refine Eq.trans ?_ (congrArg (result (m ((c : Thread nD τ).loc main_arg0)) (m ((c : Thread nD τ).loc main_arg1))) hj).symm
  have hx : ∀ i : Fin 2048, (iblk m c 0 t : Vec Ideal S1024x2048 .f32) (ix2 p i)
      = (m ((c : Thread nD τ).loc main_arg0) : S8192x2048.Idx → EReal) (ix2 (⟨win0_3.index t (0 : Fin 2) * 1024 + p.val, hb⟩ : Fin 8192) i) :=
    fun i => xblk_apply m c t p i _ (by show win0_3.index t (0 : Fin 2) * 1024 + p.val = _; omega) e01
  have hv : ∀ (i : Fin 2048) (k : Fin 64), (iblk m c 1 t : Vec Ideal S2048x64 .f32) (ix2 i k)
      = (m ((c : Thread nD τ).loc main_arg1) : S2048x64.Idx → EReal) (ix2 i k) :=
    fun i k => vblk_apply m c t i k e10 e11
  have hw : ∀ i : Fin 2048, (iblk m c 2 t : Vec Ideal S1x2048 .f32) (ix2 (0 : Fin 1) i)
      = rowNorm (m ((c : Thread nD τ).loc main_arg1)) i :=
    fun i => wblk_apply m c t i e20 e21
  simp only [hx, hv, hw]
  rfl

/-- An index of the result is in step `t`'s block iff each coordinate is in the block's range on its axis. -/
theorem mem_blk (t : Fin cfg0.N) (i : S8192x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v3).slice (win0_3.rect t)).set ↔ _
  rw [View.set_slice_whole, Rect.mem_set_unit]
  exact Iff.rfl

/-- Every row of the result is in some step's block: row `b` in block `b / 1024`. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- The result array after the run. -/
theorem final (c : Dev nD) : (dats m 0 c).arrAt 3 cfg0.N
    = result (m ((c : Thread nD τ).loc main_arg0)) (m ((c : Thread nD τ).loc main_arg1)) :=
  (dats m 0 c).arrAt_eq_of_cover 3 _ (fun t _ => flushed_eq m c t) cover

/-- The kernel's run, read: the result array holds the factored interaction row by row, the arguments are unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference, read at a row: the paired arrangement.

  The reference forms `x·v` and `(x∘x)·(v∘v)` as two matrix products, squares the first entry by entry, subtracts the
  second, sums each row's 64 differences from zero, and halves. At row `b` (its result is an [8192, 1] column) that is
  `½ · ∑ k, ((∑ i, x b i · v i k)² - ∑ i, (x b i)² · (v i k)²)`.
-/
import proofs.«136021_j19035295056197_2_alg».proof.Proof.Gen.ReferenceIdeal.Read
import proofs.«136021_j19035295056197_2_alg».proof.Proof.Interaction

noncomputable section

open scoped BigOperators

namespace Cert.ReferenceIdeal.Paired

open Cert.ReferenceIdeal Cert.ReferenceIdeal.Gen Cert.ReferenceIdeal.Read Idealize.ShloMosaic Idealize.ShloMosaic.ValueIdx
open Cert.Interaction

/-- The reference's result at row `b` is the paired interaction of that row. -/
theorem ref_apply (x : FVec Ideal S8192x2048 .f32) (v : FVec Ideal S2048x64 .f32) (b : Fin 8192) (u : Fin 1) :
    val_main_v9 (F := Ideal) x v (ix2 b u) = paired x v b := by
  have ek : ∀ k : Fin 64, idx_main_v6 (idx_main_v7 (ix2 b u)) k = ix2 b k := fun k =>
    funext fun a => Fin.ext (by match a with | ⟨0, _⟩ => rfl | ⟨1, _⟩ => rfl)
  have hl0 : ∀ (k : Fin 64) (i : Fin 2048), lidx_main_v0 (ix2 b k) i = ix2 b i := fun k i =>
    funext fun a => Fin.ext (by match a with | ⟨0, _⟩ => rfl | ⟨1, _⟩ => rfl)
  have hr0 : ∀ (k : Fin 64) (i : Fin 2048), ridx_main_v0 (ix2 b k) i = ix2 i k := fun k i =>
    funext fun a => Fin.ext (by match a with | ⟨0, _⟩ => rfl | ⟨1, _⟩ => rfl)
  have hl3 : ∀ (k : Fin 64) (i : Fin 2048), lidx_main_v3 (ix2 b k) i = ix2 b i := fun k i =>
    funext fun a => Fin.ext (by match a with | ⟨0, _⟩ => rfl | ⟨1, _⟩ => rfl)
  have hr3 : ∀ (k : Fin 64) (i : Fin 2048), ridx_main_v3 (ix2 b k) i = ix2 i k := fun k i =>
    funext fun a => Fin.ext (by match a with | ⟨0, _⟩ => rfl | ⟨1, _⟩ => rfl)
  unfold paired proj
  rw [val_main_v9_apply, val_main_v8_apply, val_main_cst_0_apply, val_main_v7_apply, val_main_v6_apply, val_main_cst_apply]
  simp only [ek, val_main_v5_apply, val_main_v4_apply, val_main_v3_apply, val_main_v0_apply, val_main_v1_apply,
    val_main_v2_apply, hl0, hr0, hl3, hr3, Ideal.mulf_def, Ideal.subf_def, Ideal.ofBits_def, Ideal.ofBits_zero_f32, zero_add]

end Cert.ReferenceIdeal.Paired

end
-- ==== Proof.FiniteEntries.lean ====
/-
  What the precondition gives: every entry of `x` and of `v` is a real number.

  The precondition is the conjunction of two `all`-reductions, one per input, of the entrywise comparison `|entry| < +∞`. If
  it holds, each reduction is 1, so each comparison is 1 at every index, and an extended real whose absolute value is below
  `+∞` is a real number.
-/
import proofs.«136021_j19035295056197_2_alg».proof.Pre_finite_inputs
import proofs.«136021_j19035295056197_2_alg».proof.Proof.Gen.Pre_finite_inputs
import Idealize.ShloMosaic.Lib.ReduceAll
import Idealize.ShloMosaic.Lib.ValueIdx
import proofs.«136021_j19035295056197_2_alg».proof.Proof.LibERealFinite

noncomputable section

namespace Cert.Pre_finite_inputs.Entries

open Idealize.ShloMosaic Cert.Pre_finite_inputs Cert.Pre_finite_inputs.Gen Cert.LibERealFinite

instance : Subsingleton S_.Idx := ⟨fun a b => funext fun d => d.elim0⟩

/-- Under the precondition every entry of both inputs is a real number. -/
theorem entries_real (x : FVec Ideal S8192x2048 .f32) (v : FVec Ideal S2048x64 .f32)
    (h : fn (F := Ideal) x v = fun _ => 1#1) :
    (∀ j, ∃ r : ℝ, x j = (r : EReal)) ∧ (∀ j, ∃ r : ℝ, v j = (r : EReal)) := by
  have h0 := congrFun h ValueIdx.ix0
  dsimp only [fn] at h0
  obtain ⟨hx, hv⟩ := IntOp.andi_eq_one.1 h0
  refine ⟨fun j => ?_, fun j => ?_⟩
  · exact real_of_abs_lt (x j) (Host.reduce_andi_all _ _ _ _ _ hx j)
  · exact real_of_abs_lt (v j) (Host.reduce_andi_all _ _ _ _ _ hv j)

end Cert.Pre_finite_inputs.Entries

end
-- ==== Proof.lean ====
/-
  The second-order interaction of a factorization machine: a tiled kernel against its reference, on the extended reals.

  For `x` (8192 rows of 2048 features) and factors `v` (2048 by 64), with `P b k = ∑ i, x b i · v i k`:
    * the reference computes, for each row `b`,  `½ · ∑ k, ((P b k)² - ∑ i, (x b i)² · (v i k)²)`  (two matrix products,
      subtracted entry by entry, then summed over the 64 factors);
    * the kernel first lets the host sum each factor row's squares, `W i = ∑ k, (v i k)²`, and then, in 8 grid steps of 1024
      rows, computes  `½ · (∑ k, (P b k)² - ∑ i, (x b i)² · W i)`  (one matrix product, two row sums, one subtraction).
  The two agree when every entry is a real number — a finite sum of differences is the difference of the sums, the double
  sum over features and factors may be taken in either order, and `(x b i)²` moves into the sum over `k` — and that is what
  the precondition (every input entry finite) gives. At infinite entries the two arrangements can differ, so the precondition
  is used.

  The three frames are the generated ones (the reference's is its generated run with the result dropped); the idealization
  rewrote nothing, so `preserves` is trivial; the kernel's result array is read off the generated blockwise run (module
  KernelValue), the reference's off its generated run one operation at a time (module RefValue).
-/
import proofs.«136021_j19035295056197_2_alg».proof.Defs
import proofs.«136021_j19035295056197_2_alg».proof.Proof.Gen.Kernel
import proofs.«136021_j19035295056197_2_alg».proof.Proof.Gen.Kernel.Skeleton
import proofs.«136021_j19035295056197_2_alg».proof.Proof.Gen.Kernel.Launch
import proofs.«136021_j19035295056197_2_alg».proof.Proof.Gen.Kernel.Points
import proofs.«136021_j19035295056197_2_alg».proof.Proof.Gen.Kernel.Frame
import proofs.«136021_j19035295056197_2_alg».proof.Proof.Gen.KernelIdeal
import proofs.«136021_j19035295056197_2_alg».proof.Proof.Gen.KernelIdeal.Skeleton
import proofs.«136021_j19035295056197_2_alg».proof.Proof.Gen.KernelIdeal.Launch
import proofs.«136021_j19035295056197_2_alg».proof.Proof.Gen.KernelIdeal.Points
import proofs.«136021_j19035295056197_2_alg».proof.Proof.Gen.KernelIdeal.Frame
import proofs.«136021_j19035295056197_2_alg».proof.Proof.Gen.ReferenceIdeal
import proofs.«136021_j19035295056197_2_alg».proof.Proof.Gen.KernelIdeal.Value
import proofs.«136021_j19035295056197_2_alg».proof.Proof.Gen.ReferenceIdeal.Run
import proofs.«136021_j19035295056197_2_alg».proof.Proof.Gen.ReferenceIdeal.Read
import proofs.«136021_j19035295056197_2_alg».proof.Proof.Gen.Pre_finite_inputs
import proofs.«136021_j19035295056197_2_alg».proof.Proof.Interaction
import proofs.«136021_j19035295056197_2_alg».proof.Proof.KernelValue
import proofs.«136021_j19035295056197_2_alg».proof.Proof.RefValue
import proofs.«136021_j19035295056197_2_alg».proof.Proof.FiniteEntries
import Idealize.ShloMosaic.Adequacy
import Idealize.ShloMosaic.Init

noncomputable section

namespace Cert.Proof

open Idealize.ShloMosaic Idealize.ShloMosaic.TcCoe Idealize.SL.Sem Idealize.ShloMosaic.ValueIdx

/-- At real entries the reference's result array is the kernel's: row by row, the paired arrangement of the interaction
    is the factored one. -/
theorem reference_eq_kernel (x : FVec Ideal Cert.ReferenceIdeal.S8192x2048 .f32) (v : FVec Ideal Cert.ReferenceIdeal.S2048x64 .f32)
    (hx : ∀ j, ∃ r : ℝ, x j = (r : EReal)) (hv : ∀ j, ∃ r : ℝ, v j = (r : EReal)) :
    Cert.ReferenceIdeal.Read.val_main_v9 (F := Ideal) x v = Cert.KernelIdeal.Whole.result x v := by
  funext j
  obtain ⟨b, u, rfl⟩ : ∃ (b : Fin 8192) (u : Fin 1), j = ix2 b u := ⟨j 0, j 1, eq_ix2 j⟩
  rw [Cert.ReferenceIdeal.Paired.ref_apply]
  exact (Cert.Interaction.factored_eq_paired x v hx hv b).symm

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories agreeing on `x` and `v` with every entry finite, end with the same result array: the
    kernel's run leaves the factored interaction in every row, the reference's the paired one, and at real entries they
    are one number. -/
theorem algebraic : Cert.algebraic_KernelIdeal_ReferenceIdeal := by
  intro m ρ m' ρ' hpre hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hv⟩ := Cert.Pre_finite_inputs.Entries.entries_real _ _ (hpre c)
  rw [(hagree c).1, (hagree c).2]
  exact (Cert.ReferenceIdeal.Read.val_main_v9_eq _ _).trans (reference_eq_kernel _ _ hx hv)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
